-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S128 .f32) (main_arg8 : FVec F S128x256 .f32) (main_arg9 : FVec F S256 .f32) (main_arg10 : FVec F S256x256 .f32) (main_arg11 : FVec F S256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_v48 main_v49 main_v50

def fn_part1 {F : FTy → Type} [FloatOps F] (main_arg4 : FVec F S128x64 .f32) (main_arg5 : FVec F S64 .f32) (main_arg6 : FVec F S64x128 .f32) (main_arg7 : FVec F S128 .f32) (main_arg8 : FVec F S128x256 .f32) (main_arg9 : FVec F S256 .f32) (main_arg10 : FVec F S256x256 .f32) (main_arg11 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x256 .f32) (main_arg1 : FVec F S10000x10000 .f32) (main_arg2 : FVec F S256x256 .f32) (main_arg3 : FVec F S256x128 .f32) (main_arg4 : FVec F S128x64 .f32) (main_arg5 : FVec F S64 .f32) (main_arg6 : FVec F S64x128 .f32) (main_arg7 : FVec F S128 .f32) (main_arg8 : FVec F S128x256 .f32) (main_arg9 : FVec F S256 .f32) (main_arg10 : FVec F S256x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S10000x128 : Shape := ⟨2, ![10000, 128]⟩
abbrev S1x64 : Shape := ⟨2, ![1, 64]⟩
abbrev S1x128 : Shape := ⟨2, ![1, 128]⟩
abbrev S1x256 : Shape := ⟨2, ![1, 256]⟩
abbrev S10000x64 : Shape := ⟨2, ![10000, 64]⟩
abbrev S400x10000 : Shape := ⟨2, ![400, 10000]⟩
abbrev S400x256 : Shape := ⟨2, ![400, 256]⟩
abbrev S400x128 : Shape := ⟨2, ![400, 128]⟩
abbrev S400x64 : Shape := ⟨2, ![400, 64]⟩

abbrev nBuf : Space → Nat
  | .hbm => 22
  | .vmem => 28
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S10000x256, .bf16⟩
  | .hbm, ⟨13, _⟩ => ⟨S10000x256, .f32⟩
  | .hbm, ⟨14, _⟩ => ⟨S10000x128, .bf16⟩
  | .hbm, ⟨15, _⟩ => ⟨S1x64, .f32⟩
  | .hbm, ⟨16, _⟩ => ⟨S1x128, .f32⟩
  | .hbm, ⟨17, _⟩ => ⟨S1x256, .f32⟩
  | .hbm, ⟨18, _⟩ => ⟨S1x256, .f32⟩
  | .hbm, ⟨19, _⟩ => ⟨S10000x128, .f32⟩
  | .hbm, ⟨20, _⟩ => ⟨S10000x64, .f32⟩
  | .hbm, ⟨21, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S10000x256, .bf16⟩
  | .local _ .vmem, ⟨3, _⟩ => ⟨S400x10000, .f32⟩
  | .local _ .vmem, ⟨4, _⟩ => ⟨S400x10000, .f32⟩
  | .local _ .vmem, ⟨5, _⟩ => ⟨S10000x256, .bf16⟩
  | .local _ .vmem, ⟨6, _⟩ => ⟨S400x256, .f32⟩
  | .local _ .vmem, ⟨7, _⟩ => ⟨S400x256, .f32⟩
  | .local _ .vmem, ⟨8, _⟩ => ⟨S10000x256, .f32⟩
  | .local _ .vmem, ⟨9, _⟩ => ⟨S256x128, .f32⟩
  | .local _ .vmem, ⟨10, _⟩ => ⟨S10000x128, .bf16⟩
  | .local _ .vmem, ⟨11, _⟩ => ⟨S400x10000, .f32⟩
  | .local _ .vmem, ⟨12, _⟩ => ⟨S400x10000, .f32⟩
  | .local _ .vmem, ⟨13, _⟩ => ⟨S10000x128, .bf16⟩
  | .local _ .vmem, ⟨14, _⟩ => ⟨S128x64, .f32⟩
  | .local _ .vmem, ⟨15, _⟩ => ⟨S1x64, .f32⟩
  | .local _ .vmem, ⟨16, _⟩ => ⟨S64x128, .f32⟩
  | .local _ .vmem, ⟨17, _⟩ => ⟨S1x128, .f32⟩
  | .local _ .vmem, ⟨18, _⟩ => ⟨S128x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S400x128, .f32⟩
  | .local _ .vmem, ⟨23, _⟩ => ⟨S400x128, .f32⟩
  | .local _ .vmem, ⟨24, _⟩ => ⟨S400x64, .f32⟩
  | .local _ .vmem, ⟨25, _⟩ => ⟨S400x64, .f32⟩
  | .local _ .vmem, ⟨26, _⟩ => ⟨S400x256, .f32⟩
  | .local _ .vmem, ⟨27, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_v0_1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_v0_2 : Ref sig .tc := ⟨.hbm, 19, rfl⟩
abbrev main_v0_3 : Ref sig .tc := ⟨.hbm, 20, rfl⟩
abbrev main_v0_0 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg7_0 : Ref sig .tc := ⟨.vmem, 19, rfl⟩
abbrev cc3_stg8_0 : Ref sig .tc := ⟨.vmem, 20, rfl⟩
abbrev cc3_stg9_0 : Ref sig .tc := ⟨.vmem, 21, rfl⟩
abbrev cc3_stg10_0 : Ref sig .tc := ⟨.vmem, 22, rfl⟩
abbrev cc3_stg10_1 : Ref sig .tc := ⟨.vmem, 23, rfl⟩
abbrev cc3_stg11_0 : Ref sig .tc := ⟨.vmem, 24, rfl⟩
abbrev cc3_stg11_1 : Ref sig .tc := ⟨.vmem, 25, rfl⟩
abbrev cc3_stg12_0 : Ref sig .tc := ⟨.vmem, 26, rfl⟩
abbrev cc3_stg12_1 : Ref sig .tc := ⟨.vmem, 27, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem0_1 : DmaSem sig := 12
abbrev cc3_sem1_0 : DmaSem sig := 13
abbrev cc3_sem2_0 : DmaSem sig := 14
abbrev cc3_sem3_0 : DmaSem sig := 15
abbrev cc3_sem4_0 : DmaSem sig := 16
abbrev cc3_sem5_0 : DmaSem sig := 17
abbrev cc3_sem6_0 : DmaSem sig := 18
abbrev cc3_sem7_0 : DmaSem sig := 19
abbrev cc3_sem8_0 : DmaSem sig := 20
abbrev cc3_sem9_0 : DmaSem sig := 21
abbrev cc3_sem10_0 : DmaSem sig := 22
abbrev cc3_sem10_1 : DmaSem sig := 23
abbrev cc3_sem11_0 : DmaSem sig := 24
abbrev cc3_sem11_1 : DmaSem sig := 25
abbrev cc3_sem12_0 : DmaSem sig := 26
abbrev cc3_sem12_1 : DmaSem sig := 27

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S10000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S400x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S400x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S400x256 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  shapeCasts_S64_S1x64 : S64.ShapeCasts S1x64
  shapeCasts_S128_S1x128 : S128.ShapeCasts S1x128
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S10000x256_S256x128_S10000x128_1_0_0_1_n_n_wf : DotDims.WF S10000x256 S256x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x64_S64x128_S400x128_1_0_0_1_n_n_wf : DotDims.WF S400x64 S64x128 S400x128 [1] [0] [0] [1] [] []
  dot_S400x128_S128x256_S400x256_1_0_0_1_n_n_wf : DotDims.WF S400x128 S128x256 S400x256 [1] [0] [0] [1] [] []
  dot_S400x256_S256x256_S400x256_1_0_0_1_n_n_wf : DotDims.WF S400x256 S256x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x128.size a ≤ S64x128.size a
  hwx3_4 : ∀ i : grid3.Coords, EltTy.bits .f32 = 32 ∨ (Rect.block (s := S64x128) S64x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x256.size a ≤ S128x256.size a
  hwx3_6 : ∀ i : grid3.Coords, EltTy.bits .f32 = 32 ∨ (Rect.block (s := S128x256) S128x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S256x256.size a
  hwx3_8 : ∀ i : grid3.Coords, EltTy.bits .f32 = 32 ∨ (Rect.block (s := S256x256) S256x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S400x128.size a ≤ S10000x128.size a
  hwx3_10 : ∀ i : grid3.Coords, EltTy.bits .f32 = 32 ∨ (Rect.block (s := S10000x128) S400x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S400x64.size a ≤ S10000x64.size a
  hwx3_11 : ∀ i : grid3.Coords, EltTy.bits .f32 = 32 ∨ (Rect.block (s := S10000x64) S400x64.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S400x256.size a ≤ S10000x256.size a
  hwx3_12 : ∀ i : grid3.Coords, EltTy.bits .f32 = 32 ∨ (Rect.block (s := S10000x256) S400x256.size (cc3_transform_12 i) (hinb3_12 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S400x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v0_1) false false (stage2_0 0) (sem2_0 0) (Memref.isWhole_whole _) (hstage2_0 0)

abbrev win2_1 : Pipeline.Window sig grid2 :=
  Pipeline.Window.whole (Memref.whole main_arg3) false false (stage2_1 0) (sem2_1 0) (Memref.isWhole_whole _) (hstage2_1 0)

abbrev win2_2 : Pipeline.Window sig grid2 :=
  Pipeline.Window.whole (Memref.whole main_call0_v2) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v2) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v3) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S64x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v4) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S128x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v5) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S256x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_call0_v6) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v0_2) S400x128.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v0_3) S400x64.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v0_0) S400x256.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩
abbrev S10000x128 : Shape := ⟨2, ![10000, 128]⟩
abbrev S10000x64 : Shape := ⟨2, ![10000, 64]⟩
abbrev S1x64 : Shape := ⟨2, ![1, 64]⟩
abbrev S1x128 : Shape := ⟨2, ![1, 128]⟩
abbrev S1x256 : Shape := ⟨2, ![1, 256]⟩

abbrev nBuf : Space → Nat
  | .hbm => 44
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S10000x256, .f32⟩
  | .hbm, ⟨13, _⟩ => ⟨S10000x256, .f32⟩
  | .hbm, ⟨14, _⟩ => ⟨S_, .f32⟩
  | .hbm, ⟨15, _⟩ => ⟨S10000x256, .f32⟩
  | .hbm, ⟨16, _⟩ => ⟨S10000x256, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S10000x256, .f32⟩
  | .hbm, ⟨34, _⟩ => ⟨S1x256, .f32⟩
  | .hbm, ⟨35, _⟩ => ⟨S10000x256, .f32⟩
  | .hbm, ⟨36, _⟩ => ⟨S10000x256, .f32⟩
  | .hbm, ⟨37, _⟩ => ⟨S_, .f32⟩
  | .hbm, ⟨38, _⟩ => ⟨S10000x256, .f32⟩
  | .hbm, ⟨39, _⟩ => ⟨S10000x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_cst : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_cst : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call3_cst : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x64_S64x128_S10000x128_1_0_0_1_n_n_wf : DotDims.WF S10000x64 S64x128 S10000x128 [1] [0] [0] [1] [] []
  dot_S10000x128_S128x256_S10000x256_1_0_0_1_n_n_wf : DotDims.WF S10000x128 S128x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

class Facts : Prop extends Facts₀ where

variable [Facts]
-- ==== Proof.Ends.lean ====
/-
  The whole program, run: every weakly fair execution of the four kernel launches and the reshapes between them
  terminates without a fault, and in every final state each buffer that outlives the launches holds what the chain of
  boundary contents says it holds at the last boundary.

  The program is a list of segments: the first three launches, a stretch of host reshapes, the fourth launch. Each launch
  leaves its arrays at what its write-backs produce and every other buffer as it found it; the host stretch applies its
  operations. Running the segments in order from the launch memory therefore ends with every buffer at the last boundary's
  contents. The frame claim reads only the argument buffers out of that final state; here every buffer is read out, so that
  the result buffers can be followed back through the boundaries to the arguments.
-/
import proofs.«115511_g27393301414351_cont_sun_m_724_2_alg».proof.Proof.Gen.KernelIdeal.Frame

set_option maxRecDepth 16384

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in the final state every buffer of the TensorCore that is
    not scoped to a launch holds the last boundary's contents. -/
theorem run_ends : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Ends

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«115511_g27393301414351_cont_sun_m_724_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«115511_g27393301414351_cont_sun_m_724_2_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.Proj0.lean ====
/-
  The first projection launch, read as one function of its arrays: the node features times the first encoder weights.

  The launch has no grid: its one point holds both operands whole and writes the whole output. The kernel narrows the two
  operands, multiplies them into a zero accumulator and narrows the product; on exact values narrowing is the identity, so
  what is written back is the matrix product of the two arrays, whatever the contents the launch was entered with.
-/
import proofs.«115511_g27393301414351_cont_sun_m_724_2_alg».proof.Proof.Gen.KernelIdeal.Frame
import proofs.«115511_g27393301414351_cont_sun_m_724_2_alg».proof.Proof.LibLayers

set_option maxRecDepth 16384

noncomputable section

namespace Cert.KernelIdeal.Proj0

open Idealize.ShloMosaic Idealize.ShloMosaic.TcCoe Idealize.ShloMosaic.ValueIdx
open Idealize.ShloMosaic.Pipeline (Dat Cfg Window)
open Cert.KernelIdeal Cert.KernelIdeal.Gen Cert.Layers Cert.LibMatProd

variable (V : (c : Dev nD) → (b : Ref sig .tc) → Buf (Elt Ideal) ((c : Thread nD τ).loc b))

theorem origin : (![0, 0] : Fin 2 → Nat) = fun _ => 0 := funext fun a => by fin_cases a <;> rfl

/-- The kernel's arithmetic: the product of the two operands, narrowing being the identity on exact values. -/
theorem body_eq (x0 : Vec Ideal S10000x256 .f32) (x1 : Vec Ideal S256x256 .f32) :
    k0_pay1 x0 x1 = matProd (x0 : Mat 10000 256) (x1 : Mat 256 256) := by
  unfold k0_pay1
  dsimp only
  rw [unit_prod _ rfl rfl rfl rfl rfl rfl]
  rfl

/-- Every window's one block sits at the origin of its array. -/
theorem where_blocks : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left operand's block is its whole array as the launch finds it. -/
theorem left_block (c : Dev nD) (t : Fin cfg0.N) : (iblk0 V c 0 t : Mat 10000 256) = (V c main_arg0 : Mat 10000 256) := by
  obtain ⟨e0, e1, -, -, -, -⟩ := where_blocks t
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 256 + 1 * (y 1).val = (y 1).val; omega

/-- The right operand's block is its whole array as the launch finds it. -/
theorem right_block (c : Dev nD) (t : Fin cfg0.N) : (iblk0 V c 1 t : Mat 256 256) = (V c main_arg2 : Mat 256 256) := by
  obtain ⟨-, -, e2, e3, -, -⟩ := where_blocks t
  funext y
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What the one point writes back is the product of the two arrays, read through the output's one block. -/
theorem flushed_eq (c : Dev nD) (t : Fin cfg0.N) :
    (dat0 V c).flushed 2 t
      = ((cfg0.win 2).blk t).view.read (Elt Ideal) (matProd (V c main_arg0 : Mat 10000 256) (V c main_arg2 : Mat 256 256)) := by
  show (cfg0.win 2).cut (grid0.coords t) ((dat0 V c).after 2 t) = _
  rw [after0_2]
  unfold out0_2
  rw [View.canon_unit_zero origin]
  simp only [View.ld_unit_zero (S := S10000x256) origin, View.ld_unit_zero (S := S256x256) origin]
  rw [body_eq]
  obtain ⟨-, -, -, -, e4, e5⟩ := where_blocks t
  funext j
  show matProd (iblk0 V c 0 t : Mat 10000 256) (iblk0 V c 1 t : Mat 256 256) j = matProd (V c main_arg0 : Mat 10000 256) (V c main_arg2 : Mat 256 256) (((cfg0.win 2).blk t).view.emb j)
  rw [left_block V c t, right_block V c t]
  refine congrArg _ (funext fun a => Fin.ext ?_)
  match a with
  | ⟨0, _⟩ => show (j 0).val = win0_2.index t (0 : Fin 2) * 10000 + 1 * (j 0).val; omega
  | ⟨1, _⟩ => show (j 1).val = win0_2.index t (1 : Fin 2) * 256 + 1 * (j 1).val; omega

/-- An index of the output array is in the block iff each coordinate is in the block's range on its axis. -/
theorem mem_block (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_call0_v0).slice (win0_2.rect t)).set ↔ _
  rw [View.set_slice_whole, Rect.mem_set_unit]
  exact Iff.rfl

/-- The one block is the whole output array. -/
theorem covered (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  let t : Fin cfg0.N := ⟨0, by decide⟩
  obtain ⟨-, -, -, -, e4, e5⟩ := where_blocks t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- After the launch its output array is the product of the two arrays it was entered with. -/
theorem ends (c : Dev nD) :
    (dat0 V c).arrAt 2 cfg0.N = matProd (V c main_arg0 : Mat 10000 256) (V c main_arg2 : Mat 256 256) :=
  (dat0 V c).arrAt_eq_of_cover 2 _ (fun t _ => flushed_eq V c t) covered

end Cert.KernelIdeal.Proj0

end
-- ==== Proof.Conv1.lean ====
/-
  The first graph-convolution launch, read as one function of its arrays.

  The launch walks the adjacency matrix in 25 bands of 400 rows. At band t the kernel holds rows 400 t, …, 400 t + 399 of
  the adjacency matrix and the whole support matrix s, and writes back `clamp (band · s)` to rows 400 t, …, 400 t + 399 of
  its output. A band of rows of `clamp (adj · s)` is that same function of the band of adj, so every band written back is a
  band of the one matrix `conv adj s`; the 25 bands tile the 10000 rows; hence the output array ends at `conv adj s`,
  whatever the contents the launch was entered with.
-/
import proofs.«115511_g27393301414351_cont_sun_m_724_2_alg».proof.Proof.Gen.KernelIdeal.Frame
import proofs.«115511_g27393301414351_cont_sun_m_724_2_alg».proof.Proof.LibLayers

set_option maxRecDepth 16384

noncomputable section

namespace Cert.KernelIdeal.Conv1

open Idealize.ShloMosaic Idealize.ShloMosaic.TcCoe Idealize.ShloMosaic.ValueIdx
open Idealize.ShloMosaic.Pipeline (Dat Cfg Window)
open Cert.KernelIdeal Cert.KernelIdeal.Gen Cert.Layers Cert.LibMatProd

variable (V : (c : Dev nD) → (b : Ref sig .tc) → Buf (Elt Ideal) ((c : Thread nD τ).loc b))

theorem origin : (![0, 0] : Fin 2 → Nat) = fun _ => 0 := funext fun a => by fin_cases a <;> rfl

/-- The kernel's arithmetic on the band it holds: the product with the support matrix accumulated into zeros, clamped. -/
theorem body_eq (x0 : Vec Ideal S400x10000 .f32) (x1 : Vec Ideal S10000x256 .bf16) :
    k1_pay1 x0 x1 = conv (x0 : Mat 400 10000) (x1 : Mat 10000 256) := by
  unfold k1_pay1
  dsimp only
  rw [shapeCast_self, unit_prod _ rfl rfl rfl rfl rfl rfl, unit_clamp]
  rfl

/-- Where the windows' blocks sit at band t: the adjacency band and the output band at block row t, the support matrix whole. -/
theorem where_blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem band_fits (t : Fin cfg1.N) : 400 * t.val + 400 ≤ 10000 := by
  have : t.val < 25 := t.isLt
  omega

/-- The adjacency block at band t is rows 400 t, …, 400 t + 399 of the adjacency matrix as the launch finds it. -/
theorem adj_block (c : Dev nD) (t : Fin cfg1.N) :
    (iblk1 V c 0 t : Mat 400 10000) = band 400 (400 * t.val) (band_fits t) (V c main_arg1 : Mat 10000 10000) := by
  obtain ⟨e0, e1, -, -, -, -⟩ := where_blocks t
  funext y
  show V c main_arg1 (((cfg1.win 0).blk t).view.emb y) = V c main_arg1 _
  refine congrArg (V c main_arg1) (funext fun a => Fin.ext ?_)
  match a with
  | ⟨0, _⟩ => show win1_0.index t (0 : Fin 2) * 400 + 1 * (y 0).val = 400 * t.val + (y 0).val; omega
  | ⟨1, _⟩ => show win1_0.index t (1 : Fin 2) * 10000 + 1 * (y 1).val = (y 1).val; omega

/-- The support block at every band is the whole support matrix as the launch finds it. -/
theorem support_block (c : Dev nD) (t : Fin cfg1.N) :
    (iblk1 V c 1 t : Mat 10000 256) = (V c main_call0_v0 : Mat 10000 256) := by
  obtain ⟨-, -, e2, e3, -, -⟩ := where_blocks t
  funext y
  show V c main_call0_v0 (((cfg1.win 1).blk t).view.emb y) = V c main_call0_v0 y
  refine congrArg (V c main_call0_v0) (funext fun a => Fin.ext ?_)
  match a with
  | ⟨0, _⟩ => show win1_1.index t (0 : Fin 2) * 10000 + 1 * (y 0).val = (y 0).val; omega
  | ⟨1, _⟩ => show win1_1.index t (1 : Fin 2) * 256 + 1 * (y 1).val = (y 1).val; omega

/-- What band t writes back is band t of `conv adj s`. -/
theorem flushed_eq (c : Dev nD) (t : Fin cfg1.N) :
    (dat1 V c).flushed 2 t
      = ((cfg1.win 2).blk t).view.read (Elt Ideal) (conv (V c main_arg1 : Mat 10000 10000) (V c main_call0_v0 : Mat 10000 256)) := by
  show (cfg1.win 2).cut (grid1.coords t) ((dat1 V c).after 2 t) = _
  rw [after1_2]
  unfold out1_2
  rw [View.canon_unit_zero origin]
  simp only [View.ld_unit_zero (S := S400x10000) origin, View.ld_unit_zero (S := S10000x256) origin]
  rw [body_eq]
  obtain ⟨-, -, -, -, e4, e5⟩ := where_blocks t
  funext j
  show conv (iblk1 V c 0 t : Mat 400 10000) (iblk1 V c 1 t : Mat 10000 256) j = conv (V c main_arg1 : Mat 10000 10000) (V c main_call0_v0 : Mat 10000 256) (((cfg1.win 2).blk t).view.emb j)
  rw [adj_block V c t, support_block V c t, band_conv]
  refine band_apply 400 (400 * t.val) (band_fits t) _ j _ ?_ ?_
  · show win1_2.index t (0 : Fin 2) * 400 + 1 * (j 0).val = 400 * t.val + (j 0).val; omega
  · show win1_2.index t (1 : Fin 2) * 256 + 1 * (j 1).val = (j 1).val; omega

/-- An index of the output array is in band t's block iff each coordinate is in the block's range on its axis. -/
theorem mem_block (t : Fin cfg1.N) (i : S10000x256.Idx) :
    i ∈ ((cfg1.win 2).blk t).view.set ↔ ∀ a : Fin 2, win1_2.index t a * S400x256.size a ≤ (i a).val ∧ (i a).val < win1_2.index t a * S400x256.size a + S400x256.size a := by
  show i ∈ ((View.whole main_v0_1).slice (win1_2.rect t)).set ↔ _
  rw [View.set_slice_whole, Rect.mem_set_unit]
  exact Iff.rfl

/-- Every row of the output lies in some band: row r in band r / 400. -/
theorem covered (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  let t : Fin cfg1.N := ⟨(i 0).val / 400, by show (i 0).val / 400 < 25; omega⟩
  obtain ⟨-, -, -, -, e4, e5⟩ := where_blocks t
  have ht : t.val = (i 0).val / 400 := rfl
  refine ⟨t, flush1_2 t, ?_⟩
  rw [mem_block]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 256 ≤ (i 1).val ∧ (i 1).val < win1_2.index t (1 : Fin 2) * 256 + 256; omega

/-- After the launch its output array is `conv adj s` of the arrays it was entered with. -/
theorem ends (c : Dev nD) :
    (dat1 V c).arrAt 2 cfg1.N = conv (V c main_arg1 : Mat 10000 10000) (V c main_call0_v0 : Mat 10000 256) :=
  (dat1 V c).arrAt_eq_of_cover 2 _ (fun t _ => flushed_eq V c t) covered

end Cert.KernelIdeal.Conv1

end
-- ==== Proof.Proj2.lean ====
/-
  The second projection launch, read as one function of its arrays: the first hidden layer times the second encoder weights.

  The launch has no grid: its one point holds both operands whole and writes the whole output. The kernel narrows the two
  operands, multiplies them into a zero accumulator and narrows the product; on exact values narrowing is the identity, so
  what is written back is the matrix product of the two arrays, whatever the contents the launch was entered with.
-/
import proofs.«115511_g27393301414351_cont_sun_m_724_2_alg».proof.Proof.Gen.KernelIdeal.Frame
import proofs.«115511_g27393301414351_cont_sun_m_724_2_alg».proof.Proof.LibLayers

set_option maxRecDepth 16384

noncomputable section

namespace Cert.KernelIdeal.Proj2

open Idealize.ShloMosaic Idealize.ShloMosaic.TcCoe Idealize.ShloMosaic.ValueIdx
open Idealize.ShloMosaic.Pipeline (Dat Cfg Window)
open Cert.KernelIdeal Cert.KernelIdeal.Gen Cert.Layers Cert.LibMatProd

variable (V : (c : Dev nD) → (b : Ref sig .tc) → Buf (Elt Ideal) ((c : Thread nD τ).loc b))

theorem origin : (![0, 0] : Fin 2 → Nat) = fun _ => 0 := funext fun a => by fin_cases a <;> rfl

/-- The kernel's arithmetic: the product of the two operands, narrowing being the identity on exact values. -/
theorem body_eq (x0 : Vec Ideal S10000x256 .f32) (x1 : Vec Ideal S256x128 .f32) :
    k2_pay1 x0 x1 = matProd (x0 : Mat 10000 256) (x1 : Mat 256 128) := by
  unfold k2_pay1
  dsimp only
  rw [shapeCast_self, unit_prod _ rfl rfl rfl rfl rfl rfl]
  rfl

/-- Every window's one block sits at the origin of its array. -/
theorem where_blocks : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The left operand's block is its whole array as the launch finds it. -/
theorem left_block (c : Dev nD) (t : Fin cfg2.N) : (iblk2 V c 0 t : Mat 10000 256) = (V c main_v0_1 : Mat 10000 256) := by
  obtain ⟨e0, e1, -, -, -, -⟩ := where_blocks t
  funext y
  show V c main_v0_1 (((cfg2.win 0).blk t).view.emb y) = V c main_v0_1 y
  refine congrArg (V c main_v0_1) (funext fun a => Fin.ext ?_)
  match a with
  | ⟨0, _⟩ => show win2_0.index t (0 : Fin 2) * 10000 + 1 * (y 0).val = (y 0).val; omega
  | ⟨1, _⟩ => show win2_0.index t (1 : Fin 2) * 256 + 1 * (y 1).val = (y 1).val; omega

/-- The right operand's block is its whole array as the launch finds it. -/
theorem right_block (c : Dev nD) (t : Fin cfg2.N) : (iblk2 V c 1 t : Mat 256 128) = (V c main_arg3 : Mat 256 128) := by
  obtain ⟨-, -, e2, e3, -, -⟩ := where_blocks t
  funext y
  show V c main_arg3 (((cfg2.win 1).blk t).view.emb y) = V c main_arg3 y
  refine congrArg (V c main_arg3) (funext fun a => Fin.ext ?_)
  match a with
  | ⟨0, _⟩ => show win2_1.index t (0 : Fin 2) * 256 + 1 * (y 0).val = (y 0).val; omega
  | ⟨1, _⟩ => show win2_1.index t (1 : Fin 2) * 128 + 1 * (y 1).val = (y 1).val; omega

/-- What the one point writes back is the product of the two arrays, read through the output's one block. -/
theorem flushed_eq (c : Dev nD) (t : Fin cfg2.N) :
    (dat2 V c).flushed 2 t
      = ((cfg2.win 2).blk t).view.read (Elt Ideal) (matProd (V c main_v0_1 : Mat 10000 256) (V c main_arg3 : Mat 256 128)) := by
  show (cfg2.win 2).cut (grid2.coords t) ((dat2 V c).after 2 t) = _
  rw [after2_2]
  unfold out2_2
  rw [View.canon_unit_zero origin]
  simp only [View.ld_unit_zero (S := S10000x256) origin, View.ld_unit_zero (S := S256x128) origin]
  rw [body_eq]
  obtain ⟨-, -, -, -, e4, e5⟩ := where_blocks t
  funext j
  show matProd (iblk2 V c 0 t : Mat 10000 256) (iblk2 V c 1 t : Mat 256 128) j = matProd (V c main_v0_1 : Mat 10000 256) (V c main_arg3 : Mat 256 128) (((cfg2.win 2).blk t).view.emb j)
  rw [left_block V c t, right_block V c t]
  refine congrArg _ (funext fun a => Fin.ext ?_)
  match a with
  | ⟨0, _⟩ => show (j 0).val = win2_2.index t (0 : Fin 2) * 10000 + 1 * (j 0).val; omega
  | ⟨1, _⟩ => show (j 1).val = win2_2.index t (1 : Fin 2) * 128 + 1 * (j 1).val; omega

/-- An index of the output array is in the block iff each coordinate is in the block's range on its axis. -/
theorem mem_block (t : Fin cfg2.N) (i : S10000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_call0_v2).slice (win2_2.rect t)).set ↔ _
  rw [View.set_slice_whole, Rect.mem_set_unit]
  exact Iff.rfl

/-- The one block is the whole output array. -/
theorem covered (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  let t : Fin cfg2.N := ⟨0, by decide⟩
  obtain ⟨-, -, -, -, e4, e5⟩ := where_blocks t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the launch its output array is the product of the two arrays it was entered with. -/
theorem ends (c : Dev nD) :
    (dat2 V c).arrAt 2 cfg2.N = matProd (V c main_v0_1 : Mat 10000 256) (V c main_arg3 : Mat 256 128) :=
  (dat2 V c).arrAt_eq_of_cover 2 _ (fun t _ => flushed_eq V c t) covered

end Cert.KernelIdeal.Proj2

end
-- ==== Proof.Decode3.lean ====
/-
  The last launch — the second graph convolution, the latent layer and the decoder — read as functions of its arrays.

  The launch walks the adjacency matrix in 25 bands of 400 rows, holding every other operand whole: the support matrix, the
  latent weights and bias row, and the three decoder layers' weights and bias rows. At band t it computes, for rows
  400 t, …, 400 t + 399: the hidden layer `clamp (band · s)`; the latent layer, a dense layer of the hidden one; and the
  decoder's three dense layers of the latent one, the first two clamped; and it writes the hidden band, the latent band and
  the reconstructed band back to those rows of its three outputs. Every one of these layers acts row by row, so each band
  written back is that band of one whole-matrix function of the arrays; the 25 bands tile the 10000 rows; hence the three
  output arrays end at those whole-matrix functions, whatever the contents the launch was entered with.
-/
import proofs.«115511_g27393301414351_cont_sun_m_724_2_alg».proof.Proof.Gen.KernelIdeal.Frame
import proofs.«115511_g27393301414351_cont_sun_m_724_2_alg».proof.Proof.LibLayers

set_option maxRecDepth 16384

noncomputable section

namespace Cert.KernelIdeal.Decode3

open Idealize.ShloMosaic Idealize.ShloMosaic.TcCoe Idealize.ShloMosaic.ValueIdx
open Idealize.ShloMosaic.Pipeline (Dat Cfg Window)
open Cert.KernelIdeal Cert.KernelIdeal.Gen Cert.Layers Cert.LibMatProd

variable (V : (c : Dev nD) → (b : Ref sig .tc) → Buf (Elt Ideal) ((c : Thread nD τ).loc b))

theorem origin : (![0, 0] : Fin 2 → Nat) = fun _ => 0 := funext fun a => by fin_cases a <;> rfl

/-! ## The three whole-matrix functions -/

/-- The second hidden layer of the arrays the launch finds: `clamp (adj · s)`. -/
abbrev hiddenOf (c : Dev nD) : Mat 10000 128 := conv (V c main_arg1 : Mat 10000 10000) (V c main_call0_v2 : Mat 10000 128)

/-- The latent layer: a dense layer of the hidden one. -/
abbrev latentOf (c : Dev nD) : Mat 10000 64 := dense (hiddenOf V c) (V c main_arg4 : Mat 128 64) (V c main_call0_v3 : Mat 1 64)

/-- The reconstruction: the decoder's three dense layers of the latent one. -/
abbrev reconOf (c : Dev nD) : Mat 10000 256 :=
  decoder (latentOf V c) (V c main_arg6 : Mat 64 128) (V c main_call0_v4 : Mat 1 128) (V c main_arg8 : Mat 128 256)
    (V c main_call0_v5 : Mat 1 256) (V c main_arg10 : Mat 256 256) (V c main_call0_v6 : Mat 1 256)

/-! ## The kernel's arithmetic on the band it holds -/

/-- The hidden band: the product with the support matrix accumulated into zeros, clamped. -/
theorem hidden_eq (x0 : Vec Ideal S400x10000 .f32) (x1 : Vec Ideal S10000x128 .bf16) :
    k3_pay2 x0 x1 = conv (x0 : Mat 400 10000) (x1 : Mat 10000 128) := by
  unfold k3_pay2
  dsimp only
  rw [shapeCast_self, unit_prod _ rfl rfl rfl rfl rfl rfl, unit_clamp]
  rfl

/-- The latent band: the hidden band times the latent weights, plus the bias row. -/
theorem latent_eq (x0 : Vec Ideal S400x10000 .f32) (x1 : Vec Ideal S10000x128 .bf16) (x2 : Vec Ideal S128x64 .f32) (x3 : Vec Ideal S1x64 .f32) :
    k3_pay3 x0 x1 x2 x3 = dense (conv (x0 : Mat 400 10000) (x1 : Mat 10000 128)) (x2 : Mat 128 64) (x3 : Mat 1 64) := by
  unfold k3_pay3
  dsimp only
  rw [hidden_eq, unit_prod _ rfl rfl rfl rfl rfl rfl, unit_addRow]
  rfl

/-- The reconstructed band: three dense layers of the latent band, the first two clamped. -/
theorem decoded_eq (x0 : Vec Ideal S400x10000 .f32) (x1 : Vec Ideal S10000x128 .bf16) (x2 : Vec Ideal S128x64 .f32) (x3 : Vec Ideal S1x64 .f32)
    (x4 : Vec Ideal S64x128 .f32) (x5 : Vec Ideal S1x128 .f32) (x6 : Vec Ideal S128x256 .f32) (x7 : Vec Ideal S1x256 .f32)
    (x8 : Vec Ideal S256x256 .f32) (x9 : Vec Ideal S1x256 .f32) :
    k3_pay1 (k3_pay4 x0 x1 x2 x3 x4 x5 x6 x7) (k3_pay5 (F := Ideal)) x8 x9
      = decoder (dense (conv (x0 : Mat 400 10000) (x1 : Mat 10000 128)) (x2 : Mat 128 64) (x3 : Mat 1 64)) (x4 : Mat 64 128) (x5 : Mat 1 128)
          (x6 : Mat 128 256) (x7 : Mat 1 256) (x8 : Mat 256 256) (x9 : Mat 1 256) := by
  unfold k3_pay1 k3_pay4 k3_pay5
  dsimp only
  rw [latent_eq, unit_clamp, unit_clamp, unit_prod _ rfl rfl rfl rfl rfl rfl, unit_prod _ rfl rfl rfl rfl rfl rfl,
    unit_prod _ rfl rfl rfl rfl rfl rfl, unit_addRow, unit_addRow, unit_addRow]
  rfl

/-! ## Where the windows' blocks sit -/

/-- At band t the adjacency band and the three output bands sit at block row t. -/
theorem moving_blocks : ∀ t : Fin cfg3.N, win3_0.index t (0 : Fin 2) = t.val ∧ win3_0.index t (1 : Fin 2) = 0
    ∧ win3_10.index t (0 : Fin 2) = t.val ∧ win3_10.index t (1 : Fin 2) = 0
    ∧ win3_11.index t (0 : Fin 2) = t.val ∧ win3_11.index t (1 : Fin 2) = 0
    ∧ win3_12.index t (0 : Fin 2) = t.val ∧ win3_12.index t (1 : Fin 2) = 0 :=
  (by decide +kernel : ∀ t : Fin grid3.N, _)

/-- Every other window's one block sits at the origin of its array, at every band. -/
theorem whole_blocks : ∀ t : Fin cfg3.N, win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0 :=
  (by decide +kernel : ∀ t : Fin grid3.N, _)

theorem band_fits (t : Fin cfg3.N) : 400 * t.val + 400 ≤ 10000 := by
  have : t.val < 25 := t.isLt
  omega

/-- The adjacency block at band t is rows 400 t, …, 400 t + 399 of the adjacency matrix as the launch finds it. -/
theorem adj_block (c : Dev nD) (t : Fin cfg3.N) :
    (iblk3 V c 0 t : Mat 400 10000) = band 400 (400 * t.val) (band_fits t) (V c main_arg1 : Mat 10000 10000) := by
  have e0 := (moving_blocks t).1
  have e1 := (moving_blocks t).2.1
  funext y
  show V c main_arg1 (((cfg3.win 0).blk t).view.emb y) = V c main_arg1 _
  refine congrArg (V c main_arg1) (funext fun a => Fin.ext ?_)
  match a with
  | ⟨0, _⟩ => show win3_0.index t (0 : Fin 2) * 400 + 1 * (y 0).val = 400 * t.val + (y 0).val; omega
  | ⟨1, _⟩ => show win3_0.index t (1 : Fin 2) * 10000 + 1 * (y 1).val = (y 1).val; omega

/-- Window 1's block at every band is its whole array as the launch finds it. -/
theorem support_block (c : Dev nD) (t : Fin cfg3.N) : (iblk3 V c 1 t : Mat 10000 128) = (V c main_call0_v2 : Mat 10000 128) := by
  have e0 := (whole_blocks t).1
  have e1 := (whole_blocks t).2.1
  funext y
  show V c main_call0_v2 (((cfg3.win 1).blk t).view.emb y) = V c main_call0_v2 y
  refine congrArg (V c main_call0_v2) (funext fun a => Fin.ext ?_)
  match a with
  | ⟨0, _⟩ => show win3_1.index t (0 : Fin 2) * 10000 + 1 * (y 0).val = (y 0).val; omega
  | ⟨1, _⟩ => show win3_1.index t (1 : Fin 2) * 128 + 1 * (y 1).val = (y 1).val; omega

/-- Window 2's block at every band is its whole array as the launch finds it. -/
theorem wz_block (c : Dev nD) (t : Fin cfg3.N) : (iblk3 V c 2 t : Mat 128 64) = (V c main_arg4 : Mat 128 64) := by
  have e0 := (whole_blocks t).2.2.1
  have e1 := (whole_blocks t).2.2.2.1
  funext y
  show V c main_arg4 (((cfg3.win 2).blk t).view.emb y) = V c main_arg4 y
  refine congrArg (V c main_arg4) (funext fun a => Fin.ext ?_)
  match a with
  | ⟨0, _⟩ => show win3_2.index t (0 : Fin 2) * 128 + 1 * (y 0).val = (y 0).val; omega
  | ⟨1, _⟩ => show win3_2.index t (1 : Fin 2) * 64 + 1 * (y 1).val = (y 1).val; omega

/-- Window 3's block at every band is its whole array as the launch finds it. -/
theorem bz_block (c : Dev nD) (t : Fin cfg3.N) : (iblk3 V c 3 t : Mat 1 64) = (V c main_call0_v3 : Mat 1 64) := by
  have e0 := (whole_blocks t).2.2.2.2.1
  have e1 := (whole_blocks t).2.2.2.2.2.1
  funext y
  show V c main_call0_v3 (((cfg3.win 3).blk t).view.emb y) = V c main_call0_v3 y
  refine congrArg (V c main_call0_v3) (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Window 4's block at every band is its whole array as the launch finds it. -/
theorem wd1_block (c : Dev nD) (t : Fin cfg3.N) : (iblk3 V c 4 t : Mat 64 128) = (V c main_arg6 : Mat 64 128) := by
  have e0 := (whole_blocks t).2.2.2.2.2.2.1
  have e1 := (whole_blocks t).2.2.2.2.2.2.2.1
  funext y
  show V c main_arg6 (((cfg3.win 4).blk t).view.emb y) = V c main_arg6 y
  refine congrArg (V c main_arg6) (funext fun a => Fin.ext ?_)
  match a with
  | ⟨0, _⟩ => show win3_4.index t (0 : Fin 2) * 64 + 1 * (y 0).val = (y 0).val; omega
  | ⟨1, _⟩ => show win3_4.index t (1 : Fin 2) * 128 + 1 * (y 1).val = (y 1).val; omega

/-- Window 5's block at every band is its whole array as the launch finds it. -/
theorem bd1_block (c : Dev nD) (t : Fin cfg3.N) : (iblk3 V c 5 t : Mat 1 128) = (V c main_call0_v4 : Mat 1 128) := by
  have e0 := (whole_blocks t).2.2.2.2.2.2.2.2.1
  have e1 := (whole_blocks t).2.2.2.2.2.2.2.2.2.1
  funext y
  show V c main_call0_v4 (((cfg3.win 5).blk t).view.emb y) = V c main_call0_v4 y
  refine congrArg (V c main_call0_v4) (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6's block at every band is its whole array as the launch finds it. -/
theorem wd2_block (c : Dev nD) (t : Fin cfg3.N) : (iblk3 V c 6 t : Mat 128 256) = (V c main_arg8 : Mat 128 256) := by
  have e0 := (whole_blocks t).2.2.2.2.2.2.2.2.2.2.1
  have e1 := (whole_blocks t).2.2.2.2.2.2.2.2.2.2.2.1
  funext y
  show V c main_arg8 (((cfg3.win 6).blk t).view.emb y) = V c main_arg8 y
  refine congrArg (V c main_arg8) (funext fun a => Fin.ext ?_)
  match a with
  | ⟨0, _⟩ => show win3_6.index t (0 : Fin 2) * 128 + 1 * (y 0).val = (y 0).val; omega
  | ⟨1, _⟩ => show win3_6.index t (1 : Fin 2) * 256 + 1 * (y 1).val = (y 1).val; omega

/-- Window 7's block at every band is its whole array as the launch finds it. -/
theorem bd2_block (c : Dev nD) (t : Fin cfg3.N) : (iblk3 V c 7 t : Mat 1 256) = (V c main_call0_v5 : Mat 1 256) := by
  have e0 := (whole_blocks t).2.2.2.2.2.2.2.2.2.2.2.2.1
  have e1 := (whole_blocks t).2.2.2.2.2.2.2.2.2.2.2.2.2.1
  funext y
  show V c main_call0_v5 (((cfg3.win 7).blk t).view.emb y) = V c main_call0_v5 y
  refine congrArg (V c main_call0_v5) (funext fun a => Fin.ext ?_)
  match a with
  | ⟨0, _⟩ => show win3_7.index t (0 : Fin 2) * 1 + 1 * (y 0).val = (y 0).val; omega
  | ⟨1, _⟩ => show win3_7.index t (1 : Fin 2) * 256 + 1 * (y 1).val = (y 1).val; omega

/-- Window 8's block at every band is its whole array as the launch finds it. -/
theorem wx_block (c : Dev nD) (t : Fin cfg3.N) : (iblk3 V c 8 t : Mat 256 256) = (V c main_arg10 : Mat 256 256) := by
  have e0 := (whole_blocks t).2.2.2.2.2.2.2.2.2.2.2.2.2.2.1
  have e1 := (whole_blocks t).2.2.2.2.2.2.2.2.2.2.2.2.2.2.2.1
  funext y
  show V c main_arg10 (((cfg3.win 8).blk t).view.emb y) = V c main_arg10 y
  refine congrArg (V c main_arg10) (funext fun a => Fin.ext ?_)
  match a with
  | ⟨0, _⟩ => show win3_8.index t (0 : Fin 2) * 256 + 1 * (y 0).val = (y 0).val; omega
  | ⟨1, _⟩ => show win3_8.index t (1 : Fin 2) * 256 + 1 * (y 1).val = (y 1).val; omega

/-- Window 9's block at every band is its whole array as the launch finds it. -/
theorem bx_block (c : Dev nD) (t : Fin cfg3.N) : (iblk3 V c 9 t : Mat 1 256) = (V c main_call0_v6 : Mat 1 256) := by
  have e0 := (whole_blocks t).2.2.2.2.2.2.2.2.2.2.2.2.2.2.2.2.1
  have e1 := (whole_blocks t).2.2.2.2.2.2.2.2.2.2.2.2.2.2.2.2.2
  funext y
  show V c main_call0_v6 (((cfg3.win 9).blk t).view.emb y) = V c main_call0_v6 y
  refine congrArg (V c main_call0_v6) (funext fun a => Fin.ext ?_)
  match a with
  | ⟨0, _⟩ => show win3_9.index t (0 : Fin 2) * 1 + 1 * (y 0).val = (y 0).val; omega
  | ⟨1, _⟩ => show win3_9.index t (1 : Fin 2) * 256 + 1 * (y 1).val = (y 1).val; omega

/-! ## The three outputs -/

/-- What band t writes back to output window 10 is band t of the whole-matrix function. -/
theorem flushed_hidden (c : Dev nD) (t : Fin cfg3.N) :
    (dat3 V c).flushed 10 t = ((cfg3.win 10).blk t).view.read (Elt Ideal) (hiddenOf V c) := by
  show (cfg3.win 10).cut (grid3.coords t) ((dat3 V c).after 10 t) = _
  rw [after3_10]
  unfold out3_10
  rw [View.canon_unit_zero origin]
  simp only [View.ld_unit_zero (S := S400x10000) origin, View.ld_unit_zero (S := S10000x128) origin]
  rw [hidden_eq]
  have e0 := (moving_blocks t).2.2.1
  have e1 := (moving_blocks t).2.2.2.1
  funext j
  show conv (iblk3 V c 0 t : Mat 400 10000) (iblk3 V c 1 t : Mat 10000 128) j = hiddenOf V c (((cfg3.win 10).blk t).view.emb j)
  rw [adj_block V c t, support_block V c t, band_conv]
  refine band_apply 400 (400 * t.val) (band_fits t) _ j _ ?_ ?_
  · show win3_10.index t (0 : Fin 2) * 400 + 1 * (j 0).val = 400 * t.val + (j 0).val; omega
  · show win3_10.index t (1 : Fin 2) * 128 + 1 * (j 1).val = (j 1).val; omega

/-- An index of output 10's array is in band t's block iff each coordinate is in the block's range on its axis. -/
theorem mem_hidden (t : Fin cfg3.N) (i : S10000x128.Idx) :
    i ∈ ((cfg3.win 10).blk t).view.set ↔ ∀ a : Fin 2, win3_10.index t a * S400x128.size a ≤ (i a).val ∧ (i a).val < win3_10.index t a * S400x128.size a + S400x128.size a := by
  show i ∈ ((View.whole main_v0_2).slice (win3_10.rect t)).set ↔ _
  rw [View.set_slice_whole, Rect.mem_set_unit]
  exact Iff.rfl

/-- Every row of output 10 lies in some band: row r in band r / 400. -/
theorem covered_hidden (i : S10000x128.Idx) : ∃ t : Fin cfg3.N, (cfg3.win 10).flush t = true ∧ i ∈ ((cfg3.win 10).blk t).view.set := by
  have hi0 : (i 0).val < 10000 := (i 0).isLt
  have hi1 : (i 1).val < 128 := (i 1).isLt
  let t : Fin cfg3.N := ⟨(i 0).val / 400, by show (i 0).val / 400 < 25; omega⟩
  have e0 := (moving_blocks t).2.2.1
  have e1 := (moving_blocks t).2.2.2.1
  have ht : t.val = (i 0).val / 400 := rfl
  refine ⟨t, flush3_10 t, ?_⟩
  rw [mem_hidden]
  intro a
  match a with
  | ⟨0, _⟩ => show win3_10.index t (0 : Fin 2) * 400 ≤ (i 0).val ∧ (i 0).val < win3_10.index t (0 : Fin 2) * 400 + 400; omega
  | ⟨1, _⟩ => show win3_10.index t (1 : Fin 2) * 128 ≤ (i 1).val ∧ (i 1).val < win3_10.index t (1 : Fin 2) * 128 + 128; omega

/-- After the launch output 10's array is the whole-matrix function of the arrays the launch was entered with. -/
theorem ends_hidden (c : Dev nD) : (dat3 V c).arrAt 10 cfg3.N = hiddenOf V c :=
  (dat3 V c).arrAt_eq_of_cover 10 _ (fun t _ => flushed_hidden V c t) covered_hidden

/-- What band t writes back to output window 11 is band t of the whole-matrix function. -/
theorem flushed_latent (c : Dev nD) (t : Fin cfg3.N) :
    (dat3 V c).flushed 11 t = ((cfg3.win 11).blk t).view.read (Elt Ideal) (latentOf V c) := by
  show (cfg3.win 11).cut (grid3.coords t) ((dat3 V c).after 11 t) = _
  rw [after3_11]
  unfold out3_11
  rw [View.canon_unit_zero origin]
  simp only [View.ld_unit_zero (S := S400x10000) origin, View.ld_unit_zero (S := S10000x128) origin, View.ld_unit_zero (S := S128x64) origin, View.ld_unit_zero (S := S1x64) origin]
  rw [latent_eq]
  have e0 := (moving_blocks t).2.2.2.2.1
  have e1 := (moving_blocks t).2.2.2.2.2.1
  funext j
  show dense (conv (iblk3 V c 0 t : Mat 400 10000) (iblk3 V c 1 t : Mat 10000 128)) (iblk3 V c 2 t : Mat 128 64) (iblk3 V c 3 t : Mat 1 64) j = latentOf V c (((cfg3.win 11).blk t).view.emb j)
  rw [adj_block V c t, support_block V c t, wz_block V c t, bz_block V c t, band_conv, band_dense]
  refine band_apply 400 (400 * t.val) (band_fits t) _ j _ ?_ ?_
  · show win3_11.index t (0 : Fin 2) * 400 + 1 * (j 0).val = 400 * t.val + (j 0).val; omega
  · show win3_11.index t (1 : Fin 2) * 64 + 1 * (j 1).val = (j 1).val; omega

/-- An index of output 11's array is in band t's block iff each coordinate is in the block's range on its axis. -/
theorem mem_latent (t : Fin cfg3.N) (i : S10000x64.Idx) :
    i ∈ ((cfg3.win 11).blk t).view.set ↔ ∀ a : Fin 2, win3_11.index t a * S400x64.size a ≤ (i a).val ∧ (i a).val < win3_11.index t a * S400x64.size a + S400x64.size a := by
  show i ∈ ((View.whole main_v0_3).slice (win3_11.rect t)).set ↔ _
  rw [View.set_slice_whole, Rect.mem_set_unit]
  exact Iff.rfl

/-- Every row of output 11 lies in some band: row r in band r / 400. -/
theorem covered_latent (i : S10000x64.Idx) : ∃ t : Fin cfg3.N, (cfg3.win 11).flush t = true ∧ i ∈ ((cfg3.win 11).blk t).view.set := by
  have hi0 : (i 0).val < 10000 := (i 0).isLt
  have hi1 : (i 1).val < 64 := (i 1).isLt
  let t : Fin cfg3.N := ⟨(i 0).val / 400, by show (i 0).val / 400 < 25; omega⟩
  have e0 := (moving_blocks t).2.2.2.2.1
  have e1 := (moving_blocks t).2.2.2.2.2.1
  have ht : t.val = (i 0).val / 400 := rfl
  refine ⟨t, flush3_11 t, ?_⟩
  rw [mem_latent]
  intro a
  match a with
  | ⟨0, _⟩ => show win3_11.index t (0 : Fin 2) * 400 ≤ (i 0).val ∧ (i 0).val < win3_11.index t (0 : Fin 2) * 400 + 400; omega
  | ⟨1, _⟩ => show win3_11.index t (1 : Fin 2) * 64 ≤ (i 1).val ∧ (i 1).val < win3_11.index t (1 : Fin 2) * 64 + 64; omega

/-- After the launch output 11's array is the whole-matrix function of the arrays the launch was entered with. -/
theorem ends_latent (c : Dev nD) : (dat3 V c).arrAt 11 cfg3.N = latentOf V c :=
  (dat3 V c).arrAt_eq_of_cover 11 _ (fun t _ => flushed_latent V c t) covered_latent

/-- What band t writes back to output window 12 is band t of the whole-matrix function. -/
theorem flushed_recon (c : Dev nD) (t : Fin cfg3.N) :
    (dat3 V c).flushed 12 t = ((cfg3.win 12).blk t).view.read (Elt Ideal) (reconOf V c) := by
  show (cfg3.win 12).cut (grid3.coords t) ((dat3 V c).after 12 t) = _
  rw [after3_12]
  unfold out3_12
  rw [View.canon_unit_zero origin]
  simp only [View.ld_unit_zero (S := S400x10000) origin, View.ld_unit_zero (S := S10000x128) origin, View.ld_unit_zero (S := S128x64) origin, View.ld_unit_zero (S := S1x64) origin, View.ld_unit_zero (S := S64x128) origin, View.ld_unit_zero (S := S1x128) origin, View.ld_unit_zero (S := S128x256) origin, View.ld_unit_zero (S := S1x256) origin, View.ld_unit_zero (S := S256x256) origin]
  rw [decoded_eq]
  have e0 := (moving_blocks t).2.2.2.2.2.2.1
  have e1 := (moving_blocks t).2.2.2.2.2.2.2
  funext j
  show decoder (dense (conv (iblk3 V c 0 t : Mat 400 10000) (iblk3 V c 1 t : Mat 10000 128)) (iblk3 V c 2 t : Mat 128 64) (iblk3 V c 3 t : Mat 1 64)) (iblk3 V c 4 t : Mat 64 128) (iblk3 V c 5 t : Mat 1 128) (iblk3 V c 6 t : Mat 128 256) (iblk3 V c 7 t : Mat 1 256) (iblk3 V c 8 t : Mat 256 256) (iblk3 V c 9 t : Mat 1 256) j = reconOf V c (((cfg3.win 12).blk t).view.emb j)
  rw [adj_block V c t, support_block V c t, wz_block V c t, bz_block V c t, wd1_block V c t, bd1_block V c t, wd2_block V c t, bd2_block V c t, wx_block V c t, bx_block V c t, band_conv, band_dense, band_decoder]
  refine band_apply 400 (400 * t.val) (band_fits t) _ j _ ?_ ?_
  · show win3_12.index t (0 : Fin 2) * 400 + 1 * (j 0).val = 400 * t.val + (j 0).val; omega
  · show win3_12.index t (1 : Fin 2) * 256 + 1 * (j 1).val = (j 1).val; omega

/-- An index of output 12's array is in band t's block iff each coordinate is in the block's range on its axis. -/
theorem mem_recon (t : Fin cfg3.N) (i : S10000x256.Idx) :
    i ∈ ((cfg3.win 12).blk t).view.set ↔ ∀ a : Fin 2, win3_12.index t a * S400x256.size a ≤ (i a).val ∧ (i a).val < win3_12.index t a * S400x256.size a + S400x256.size a := by
  show i ∈ ((View.whole main_v0_0).slice (win3_12.rect t)).set ↔ _
  rw [View.set_slice_whole, Rect.mem_set_unit]
  exact Iff.rfl

/-- Every row of output 12 lies in some band: row r in band r / 400. -/
theorem covered_recon (i : S10000x256.Idx) : ∃ t : Fin cfg3.N, (cfg3.win 12).flush t = true ∧ i ∈ ((cfg3.win 12).blk t).view.set := by
  have hi0 : (i 0).val < 10000 := (i 0).isLt
  have hi1 : (i 1).val < 256 := (i 1).isLt
  let t : Fin cfg3.N := ⟨(i 0).val / 400, by show (i 0).val / 400 < 25; omega⟩
  have e0 := (moving_blocks t).2.2.2.2.2.2.1
  have e1 := (moving_blocks t).2.2.2.2.2.2.2
  have ht : t.val = (i 0).val / 400 := rfl
  refine ⟨t, flush3_12 t, ?_⟩
  rw [mem_recon]
  intro a
  match a with
  | ⟨0, _⟩ => show win3_12.index t (0 : Fin 2) * 400 ≤ (i 0).val ∧ (i 0).val < win3_12.index t (0 : Fin 2) * 400 + 400; omega
  | ⟨1, _⟩ => show win3_12.index t (1 : Fin 2) * 256 ≤ (i 1).val ∧ (i 1).val < win3_12.index t (1 : Fin 2) * 256 + 256; omega

/-- After the launch output 12's array is the whole-matrix function of the arrays the launch was entered with. -/
theorem ends_recon (c : Dev nD) : (dat3 V c).arrAt 12 cfg3.N = reconOf V c :=
  (dat3 V c).arrAt_eq_of_cover 12 _ (fun t _ => flushed_recon V c t) covered_recon

end Cert.KernelIdeal.Decode3

end
-- ==== Proof.Autoencoder.lean ====
/-
  The graph autoencoder's four results as functions of its twelve arguments, over the extended reals.

  With x the node features, adj the adjacency matrix, and the weights and biases of the layers:
    hidden1 = clamp (adj · (x · w1)),
    hidden2 = clamp (adj · (hidden1 · w2)),
    latent  = hidden2 · wz + bz on every row,
    recon   = the decoder's three dense layers of latent, the first two clamped.
  The grouping is the one written: the features are multiplied by the weights first and aggregated over the graph second.
  Both programs compute the layers in this grouping, so no law of the extended reals beyond the definitions is used, and
  the inputs need not be finite for the two to agree.
-/
import proofs.«115511_g27393301414351_cont_sun_m_724_2_alg».proof.Proof.LibLayers

noncomputable section

namespace Cert.Autoencoder

open Idealize.ShloMosaic Idealize.ShloMosaic.ValueIdx Cert.Layers Cert.LibMatProd

/-- A vector of extended reals with N entries. -/
abbrev Vect (N : ℕ) : Type := (⟨1, ![N]⟩ : Shape).Idx → EReal

variable {n f a b z p q : ℕ}

/-- The first hidden layer: the projected features aggregated over the graph, clamped below at zero. -/
def hidden1 (x : Mat n f) (adj : Mat n n) (w1 : Mat f a) : Mat n a := conv adj (matProd x w1)

/-- The second hidden layer: the same of the first hidden layer. -/
def hidden2 (x : Mat n f) (adj : Mat n n) (w1 : Mat f a) (w2 : Mat a b) : Mat n b := conv adj (matProd (hidden1 x adj w1) w2)

/-- The latent layer: a dense layer of the second hidden layer. -/
def latent (x : Mat n f) (adj : Mat n n) (w1 : Mat f a) (w2 : Mat a b) (wz : Mat b z) (bz : Vect z) : Mat n z :=
  dense (hidden2 x adj w1 w2) wz (rowOf bz)

/-- The reconstruction: the decoder of the latent layer. -/
def recon (x : Mat n f) (adj : Mat n n) (w1 : Mat f a) (w2 : Mat a b) (wz : Mat b z) (bz : Vect z)
    (wd1 : Mat z p) (bd1 : Vect p) (wd2 : Mat p q) (bd2 : Vect q) (wx : Mat q f) (bx : Vect f) : Mat n f :=
  decoder (latent x adj w1 w2 wz bz) wd1 (rowOf bd1) wd2 (rowOf bd2) wx (rowOf bx)

end Cert.Autoencoder

end
-- ==== Proof.Through.lean ====
/-
  The four results followed back through the launches to the arguments.

  Between launches the buffers hold: after the first projection, s1 = x · w1; after the first graph convolution,
  hidden1 = clamp (adj · s1); after the second projection, s2 = hidden1 · w2; after the host reshapes, the four bias
  vectors re-laid as one-row matrices; after the last launch, hidden2 = clamp (adj · s2), the latent layer and the
  reconstruction. No launch and no reshape writes an argument, and each launch leaves alone every buffer that is not one of
  its arrays, so each operand a launch reads is either an argument as launched or what an earlier launch wrote. Substituting
  the earlier results into the later ones gives the four results as the autoencoder's functions of the arguments.
-/
import proofs.«115511_g27393301414351_cont_sun_m_724_2_alg».proof.Proof.Proj0
import proofs.«115511_g27393301414351_cont_sun_m_724_2_alg».proof.Proof.Conv1
import proofs.«115511_g27393301414351_cont_sun_m_724_2_alg».proof.Proof.Proj2
import proofs.«115511_g27393301414351_cont_sun_m_724_2_alg».proof.Proof.Decode3
import proofs.«115511_g27393301414351_cont_sun_m_724_2_alg».proof.Proof.Autoencoder

set_option maxRecDepth 16384

noncomputable section

namespace Cert.KernelIdeal.Through

open Idealize.ShloMosaic Idealize.ShloMosaic.TcCoe Idealize.ShloMosaic.ValueIdx Idealize.ShloMosaic.Tactic
open Idealize.ShloMosaic.Pipeline (Dat Cfg Window)
open Cert.KernelIdeal Cert.KernelIdeal.Gen Cert.Layers Cert.LibMatProd Cert.Autoencoder

variable (m : (ℓ : Loc nD τ sig) → Buf (Elt Ideal) ℓ) (ρ : Dev nD → PrngReg)

/-- The reshapes write none of the buffers the later launch reads from earlier ones, nor an argument. -/
local macro "past_reshapes" : tactic => `(tactic|
  exact StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## After the first projection -/

theorem s1 (c : Dev nD) : (W1 m ρ c (Proc.devRef .tc main_call0_v0) : Mat 10000 256)
    = matProd (m ((c.tc : Thread nD τ).loc main_arg0) : Mat 10000 256) (m ((c.tc : Thread nD τ).loc main_arg2) : Mat 256 256) :=
  (W1_arr m ρ c 2).trans (Proj0.ends (V0 m ρ) c)

theorem adj1 (c : Dev nD) : W1 m ρ c (Proc.devRef .tc main_arg1) = m ((c.tc : Thread nD τ).loc main_arg1) :=
  W1_of_ne m ρ c main_arg1 (by decide)

/-! ## After the first graph convolution -/

theorem h1 (c : Dev nD) : (W2 m ρ c (Proc.devRef .tc main_v0_1) : Mat 10000 256)
    = hidden1 (m ((c.tc : Thread nD τ).loc main_arg0) : Mat 10000 256) (m ((c.tc : Thread nD τ).loc main_arg1) : Mat 10000 10000)
        (m ((c.tc : Thread nD τ).loc main_arg2) : Mat 256 256) := by
  refine ((W2_arr m ρ c 2).trans (Conv1.ends (V1 m ρ) c)).trans ?_
  show conv (W1 m ρ c (Proc.devRef .tc main_arg1) : Mat 10000 10000) (W1 m ρ c (Proc.devRef .tc main_call0_v0) : Mat 10000 256) = _
  rw [adj1, s1]
  rfl

theorem adj2 (c : Dev nD) : W2 m ρ c (Proc.devRef .tc main_arg1) = m ((c.tc : Thread nD τ).loc main_arg1) :=
  ((W2_arr m ρ c 0).trans (((dat1 (V1 m ρ) c).arrAt_in 0 rfl _).trans (A_eq1 (V1 m ρ) c 0))).trans (adj1 m ρ c)

theorem w2_2 (c : Dev nD) : W2 m ρ c (Proc.devRef .tc main_arg3) = m ((c.tc : Thread nD τ).loc main_arg3) :=
  (W2_of_ne m ρ c main_arg3 (by decide)).trans (W1_of_ne m ρ c main_arg3 (by decide))

/-! ## After the second projection -/

theorem s2 (c : Dev nD) : (W3 m ρ c (Proc.devRef .tc main_call0_v2) : Mat 10000 128)
    = matProd (hidden1 (m ((c.tc : Thread nD τ).loc main_arg0) : Mat 10000 256) (m ((c.tc : Thread nD τ).loc main_arg1) : Mat 10000 10000)
        (m ((c.tc : Thread nD τ).loc main_arg2) : Mat 256 256)) (m ((c.tc : Thread nD τ).loc main_arg3) : Mat 256 128) := by
  refine ((W3_arr m ρ c 2).trans (Proj2.ends (V2 m ρ) c)).trans ?_
  show matProd (W2 m ρ c (Proc.devRef .tc main_v0_1) : Mat 10000 256) (W2 m ρ c (Proc.devRef .tc main_arg3) : Mat 256 128) = _
  rw [h1, w2_2]

theorem h1_3 (c : Dev nD) : W3 m ρ c (Proc.devRef .tc main_v0_1) = W2 m ρ c (Proc.devRef .tc main_v0_1) :=
  (W3_arr m ρ c 0).trans (((dat2 (V2 m ρ) c).arrAt_in 0 rfl _).trans (A_eq2 (V2 m ρ) c 0))

theorem adj3 (c : Dev nD) : W3 m ρ c (Proc.devRef .tc main_arg1) = m ((c.tc : Thread nD τ).loc main_arg1) :=
  (W3_of_ne m ρ c main_arg1 (by decide)).trans (adj2 m ρ c)

theorem arg4_3 (c : Dev nD) : W3 m ρ c (Proc.devRef .tc main_arg4) = m ((c.tc : Thread nD τ).loc main_arg4) :=
  (W3_of_ne m ρ c main_arg4 (by decide)).trans ((W2_of_ne m ρ c main_arg4 (by decide)).trans (W1_of_ne m ρ c main_arg4 (by decide)))

theorem arg5_3 (c : Dev nD) : W3 m ρ c (Proc.devRef .tc main_arg5) = m ((c.tc : Thread nD τ).loc main_arg5) :=
  (W3_of_ne m ρ c main_arg5 (by decide)).trans ((W2_of_ne m ρ c main_arg5 (by decide)).trans (W1_of_ne m ρ c main_arg5 (by decide)))

theorem arg6_3 (c : Dev nD) : W3 m ρ c (Proc.devRef .tc main_arg6) = m ((c.tc : Thread nD τ).loc main_arg6) :=
  (W3_of_ne m ρ c main_arg6 (by decide)).trans ((W2_of_ne m ρ c main_arg6 (by decide)).trans (W1_of_ne m ρ c main_arg6 (by decide)))

theorem arg7_3 (c : Dev nD) : W3 m ρ c (Proc.devRef .tc main_arg7) = m ((c.tc : Thread nD τ).loc main_arg7) :=
  (W3_of_ne m ρ c main_arg7 (by decide)).trans ((W2_of_ne m ρ c main_arg7 (by decide)).trans (W1_of_ne m ρ c main_arg7 (by decide)))

theorem arg8_3 (c : Dev nD) : W3 m ρ c (Proc.devRef .tc main_arg8) = m ((c.tc : Thread nD τ).loc main_arg8) :=
  (W3_of_ne m ρ c main_arg8 (by decide)).trans ((W2_of_ne m ρ c main_arg8 (by decide)).trans (W1_of_ne m ρ c main_arg8 (by decide)))

theorem arg9_3 (c : Dev nD) : W3 m ρ c (Proc.devRef .tc main_arg9) = m ((c.tc : Thread nD τ).loc main_arg9) :=
  (W3_of_ne m ρ c main_arg9 (by decide)).trans ((W2_of_ne m ρ c main_arg9 (by decide)).trans (W1_of_ne m ρ c main_arg9 (by decide)))

theorem arg10_3 (c : Dev nD) : W3 m ρ c (Proc.devRef .tc main_arg10) = m ((c.tc : Thread nD τ).loc main_arg10) :=
  (W3_of_ne m ρ c main_arg10 (by decide)).trans ((W2_of_ne m ρ c main_arg10 (by decide)).trans (W1_of_ne m ρ c main_arg10 (by decide)))

theorem arg11_3 (c : Dev nD) : W3 m ρ c (Proc.devRef .tc main_arg11) = m ((c.tc : Thread nD τ).loc main_arg11) :=
  (W3_of_ne m ρ c main_arg11 (by decide)).trans ((W2_of_ne m ρ c main_arg11 (by decide)).trans (W1_of_ne m ρ c main_arg11 (by decide)))

/-! ## After the reshapes -/

theorem adj4 (c : Dev nD) : W4 m ρ c (Proc.devRef .tc main_arg1) = m ((c.tc : Thread nD τ).loc main_arg1) :=
  (show W4 m ρ c (Proc.devRef .tc main_arg1) = W3 m ρ c (Proc.devRef .tc main_arg1) by past_reshapes).trans (adj3 m ρ c)

theorem s2_4 (c : Dev nD) : W4 m ρ c (Proc.devRef .tc main_call0_v2) = W3 m ρ c (Proc.devRef .tc main_call0_v2) := by past_reshapes

theorem h1_4 (c : Dev nD) : W4 m ρ c (Proc.devRef .tc main_v0_1) = W3 m ρ c (Proc.devRef .tc main_v0_1) := by past_reshapes

theorem arg4_4 (c : Dev nD) : W4 m ρ c (Proc.devRef .tc main_arg4) = m ((c.tc : Thread nD τ).loc main_arg4) :=
  (show W4 m ρ c (Proc.devRef .tc main_arg4) = W3 m ρ c (Proc.devRef .tc main_arg4) by past_reshapes).trans (arg4_3 m ρ c)

theorem arg6_4 (c : Dev nD) : W4 m ρ c (Proc.devRef .tc main_arg6) = m ((c.tc : Thread nD τ).loc main_arg6) :=
  (show W4 m ρ c (Proc.devRef .tc main_arg6) = W3 m ρ c (Proc.devRef .tc main_arg6) by past_reshapes).trans (arg6_3 m ρ c)

theorem arg8_4 (c : Dev nD) : W4 m ρ c (Proc.devRef .tc main_arg8) = m ((c.tc : Thread nD τ).loc main_arg8) :=
  (show W4 m ρ c (Proc.devRef .tc main_arg8) = W3 m ρ c (Proc.devRef .tc main_arg8) by past_reshapes).trans (arg8_3 m ρ c)

theorem arg10_4 (c : Dev nD) : W4 m ρ c (Proc.devRef .tc main_arg10) = m ((c.tc : Thread nD τ).loc main_arg10) :=
  (show W4 m ρ c (Proc.devRef .tc main_arg10) = W3 m ρ c (Proc.devRef .tc main_arg10) by past_reshapes).trans (arg10_3 m ρ c)

/-- The reshape of argument 5 leaves it re-laid as a one-row matrix. -/
theorem row5 (c : Dev nD) : (W4 m ρ c (Proc.devRef .tc main_call0_v3) : Mat 1 64) = rowOf (m ((c.tc : Thread nD τ).loc main_arg5) : Vect 64) := by
  have e : W4 m ρ c (Proc.devRef .tc main_call0_v3) = shapeCast S1x64 (W3 m ρ c (Proc.devRef .tc main_arg5)) shapeCasts_S64_S1x64 := by
    show StableHlo.after hostOps3 _ (Proc.devRef .tc main_call0_v3) = _
    after_results
    rfl
  rw [e, arg5_3]
  exact reshape_row _ _

/-- The reshape of argument 7 leaves it re-laid as a one-row matrix. -/
theorem row7 (c : Dev nD) : (W4 m ρ c (Proc.devRef .tc main_call0_v4) : Mat 1 128) = rowOf (m ((c.tc : Thread nD τ).loc main_arg7) : Vect 128) := by
  have e : W4 m ρ c (Proc.devRef .tc main_call0_v4) = shapeCast S1x128 (W3 m ρ c (Proc.devRef .tc main_arg7)) shapeCasts_S128_S1x128 := by
    show StableHlo.after hostOps3 _ (Proc.devRef .tc main_call0_v4) = _
    after_results
    rfl
  rw [e, arg7_3]
  exact reshape_row _ _

/-- The reshape of argument 9 leaves it re-laid as a one-row matrix. -/
theorem row9 (c : Dev nD) : (W4 m ρ c (Proc.devRef .tc main_call0_v5) : Mat 1 256) = rowOf (m ((c.tc : Thread nD τ).loc main_arg9) : Vect 256) := by
  have e : W4 m ρ c (Proc.devRef .tc main_call0_v5) = shapeCast S1x256 (W3 m ρ c (Proc.devRef .tc main_arg9)) shapeCasts_S256_S1x256 := by
    show StableHlo.after hostOps3 _ (Proc.devRef .tc main_call0_v5) = _
    after_results
    rfl
  rw [e, arg9_3]
  exact reshape_row _ _

/-- The reshape of argument 11 leaves it re-laid as a one-row matrix. -/
theorem row11 (c : Dev nD) : (W4 m ρ c (Proc.devRef .tc main_call0_v6) : Mat 1 256) = rowOf (m ((c.tc : Thread nD τ).loc main_arg11) : Vect 256) := by
  have e : W4 m ρ c (Proc.devRef .tc main_call0_v6) = shapeCast S1x256 (W3 m ρ c (Proc.devRef .tc main_arg11)) shapeCasts_S256_S1x256 := by
    show StableHlo.after hostOps3 _ (Proc.devRef .tc main_call0_v6) = _
    after_results
    rfl
  rw [e, arg11_3]
  exact reshape_row _ _

/-! ## After the last launch: the four results -/

theorem result_hidden2 (c : Dev nD) : (W5 m ρ c (Proc.devRef .tc main_v0_2) : Mat 10000 128)
    = hidden2 (m ((c.tc : Thread nD τ).loc main_arg0) : Mat 10000 256) (m ((c.tc : Thread nD τ).loc main_arg1) : Mat 10000 10000)
        (m ((c.tc : Thread nD τ).loc main_arg2) : Mat 256 256) (m ((c.tc : Thread nD τ).loc main_arg3) : Mat 256 128) := by
  refine ((W5_arr m ρ c 10).trans (Decode3.ends_hidden (V4 m ρ) c)).trans ?_
  show conv (W4 m ρ c (Proc.devRef .tc main_arg1) : Mat 10000 10000) (W4 m ρ c (Proc.devRef .tc main_call0_v2) : Mat 10000 128) = _
  rw [adj4, s2_4, s2]
  rfl

theorem result_latent (c : Dev nD) : (W5 m ρ c (Proc.devRef .tc main_v0_3) : Mat 10000 64)
    = latent (m ((c.tc : Thread nD τ).loc main_arg0) : Mat 10000 256) (m ((c.tc : Thread nD τ).loc main_arg1) : Mat 10000 10000)
        (m ((c.tc : Thread nD τ).loc main_arg2) : Mat 256 256) (m ((c.tc : Thread nD τ).loc main_arg3) : Mat 256 128)
        (m ((c.tc : Thread nD τ).loc main_arg4) : Mat 128 64) (m ((c.tc : Thread nD τ).loc main_arg5) : Vect 64) := by
  refine ((W5_arr m ρ c 11).trans (Decode3.ends_latent (V4 m ρ) c)).trans ?_
  show dense (conv (W4 m ρ c (Proc.devRef .tc main_arg1) : Mat 10000 10000) (W4 m ρ c (Proc.devRef .tc main_call0_v2) : Mat 10000 128))
    (W4 m ρ c (Proc.devRef .tc main_arg4) : Mat 128 64) (W4 m ρ c (Proc.devRef .tc main_call0_v3) : Mat 1 64) = _
  rw [adj4, s2_4, s2, arg4_4, row5]
  rfl

theorem result_recon (c : Dev nD) : (W5 m ρ c (Proc.devRef .tc main_v0_0) : Mat 10000 256)
    = recon (m ((c.tc : Thread nD τ).loc main_arg0) : Mat 10000 256) (m ((c.tc : Thread nD τ).loc main_arg1) : Mat 10000 10000)
        (m ((c.tc : Thread nD τ).loc main_arg2) : Mat 256 256) (m ((c.tc : Thread nD τ).loc main_arg3) : Mat 256 128)
        (m ((c.tc : Thread nD τ).loc main_arg4) : Mat 128 64) (m ((c.tc : Thread nD τ).loc main_arg5) : Vect 64)
        (m ((c.tc : Thread nD τ).loc main_arg6) : Mat 64 128) (m ((c.tc : Thread nD τ).loc main_arg7) : Vect 128)
        (m ((c.tc : Thread nD τ).loc main_arg8) : Mat 128 256) (m ((c.tc : Thread nD τ).loc main_arg9) : Vect 256)
        (m ((c.tc : Thread nD τ).loc main_arg10) : Mat 256 256) (m ((c.tc : Thread nD τ).loc main_arg11) : Vect 256) := by
  refine ((W5_arr m ρ c 12).trans (Decode3.ends_recon (V4 m ρ) c)).trans ?_
  show decoder (dense (conv (W4 m ρ c (Proc.devRef .tc main_arg1) : Mat 10000 10000) (W4 m ρ c (Proc.devRef .tc main_call0_v2) : Mat 10000 128))
      (W4 m ρ c (Proc.devRef .tc main_arg4) : Mat 128 64) (W4 m ρ c (Proc.devRef .tc main_call0_v3) : Mat 1 64))
    (W4 m ρ c (Proc.devRef .tc main_arg6) : Mat 64 128) (W4 m ρ c (Proc.devRef .tc main_call0_v4) : Mat 1 128)
    (W4 m ρ c (Proc.devRef .tc main_arg8) : Mat 128 256) (W4 m ρ c (Proc.devRef .tc main_call0_v5) : Mat 1 256)
    (W4 m ρ c (Proc.devRef .tc main_arg10) : Mat 256 256) (W4 m ρ c (Proc.devRef .tc main_call0_v6) : Mat 1 256) = _
  rw [adj4, s2_4, s2, arg4_4, row5, arg6_4, row7, arg8_4, row9, arg10_4, row11]
  rfl

theorem result_hidden1 (c : Dev nD) : (W5 m ρ c (Proc.devRef .tc main_v0_1) : Mat 10000 256)
    = hidden1 (m ((c.tc : Thread nD τ).loc main_arg0) : Mat 10000 256) (m ((c.tc : Thread nD τ).loc main_arg1) : Mat 10000 10000)
        (m ((c.tc : Thread nD τ).loc main_arg2) : Mat 256 256) :=
  (W5_of_ne m ρ c main_v0_1 (by decide)).trans ((h1_4 m ρ c).trans ((h1_3 m ρ c).trans (h1 m ρ c)))

end Cert.KernelIdeal.Through

end
-- ==== Proof.Results.lean ====
/-
  The idealized kernel program's run with its four results named: every weakly fair execution terminates without a fault,
  the four result buffers end at the autoencoder's reconstruction, first hidden layer, second hidden layer and latent layer of
  the arguments as launched, and the arguments end unchanged.
-/
import proofs.«115511_g27393301414351_cont_sun_m_724_2_alg».proof.Proof.Ends
import proofs.«115511_g27393301414351_cont_sun_m_724_2_alg».proof.Proof.Through

set_option maxRecDepth 16384

noncomputable section

namespace Cert.KernelIdeal.Results

open Idealize.ShloMosaic Idealize.ShloMosaic.TcCoe Idealize.SL.Sem
open Cert.KernelIdeal Cert.KernelIdeal.Gen Cert.Layers Cert.Autoencoder

variable (m : (ℓ : Loc nD τ sig) → Buf (Elt Ideal) ℓ) (ρ : Dev nD → PrngReg)

/-- The reconstruction of the arguments as launched on core c. -/
abbrev reconAt (c : Dev nD) : Mat 10000 256 := recon (m ((c.tc : Thread nD τ).loc main_arg0) : Mat 10000 256) (m ((c.tc : Thread nD τ).loc main_arg1) : Mat 10000 10000) (m ((c.tc : Thread nD τ).loc main_arg2) : Mat 256 256) (m ((c.tc : Thread nD τ).loc main_arg3) : Mat 256 128) (m ((c.tc : Thread nD τ).loc main_arg4) : Mat 128 64) (m ((c.tc : Thread nD τ).loc main_arg5) : Vect 64) (m ((c.tc : Thread nD τ).loc main_arg6) : Mat 64 128) (m ((c.tc : Thread nD τ).loc main_arg7) : Vect 128) (m ((c.tc : Thread nD τ).loc main_arg8) : Mat 128 256) (m ((c.tc : Thread nD τ).loc main_arg9) : Vect 256) (m ((c.tc : Thread nD τ).loc main_arg10) : Mat 256 256) (m ((c.tc : Thread nD τ).loc main_arg11) : Vect 256)
/-- The first hidden layer of the arguments as launched on core c. -/
abbrev hidden1At (c : Dev nD) : Mat 10000 256 := hidden1 (m ((c.tc : Thread nD τ).loc main_arg0) : Mat 10000 256) (m ((c.tc : Thread nD τ).loc main_arg1) : Mat 10000 10000) (m ((c.tc : Thread nD τ).loc main_arg2) : Mat 256 256)
/-- The second hidden layer of the arguments as launched on core c. -/
abbrev hidden2At (c : Dev nD) : Mat 10000 128 := hidden2 (m ((c.tc : Thread nD τ).loc main_arg0) : Mat 10000 256) (m ((c.tc : Thread nD τ).loc main_arg1) : Mat 10000 10000) (m ((c.tc : Thread nD τ).loc main_arg2) : Mat 256 256) (m ((c.tc : Thread nD τ).loc main_arg3) : Mat 256 128)
/-- The latent layer of the arguments as launched on core c. -/
abbrev latentAt (c : Dev nD) : Mat 10000 64 := latent (m ((c.tc : Thread nD τ).loc main_arg0) : Mat 10000 256) (m ((c.tc : Thread nD τ).loc main_arg1) : Mat 10000 10000) (m ((c.tc : Thread nD τ).loc main_arg2) : Mat 256 256) (m ((c.tc : Thread nD τ).loc main_arg3) : Mat 256 128) (m ((c.tc : Thread nD τ).loc main_arg4) : Mat 128 64) (m ((c.tc : Thread nD τ).loc main_arg5) : Vect 64)

theorem run : θ_run (defs (F := Ideal)) (onTc (τ := τ) (main (F := Ideal))) ⟨m, fun _ => 0, ρ⟩ (fun r => ∀ c : Dev nD,
      r.2.mem ((c.tc : Thread nD τ).loc main_v0_0) = reconAt m c
      ∧ r.2.mem ((c.tc : Thread nD τ).loc main_v0_1) = hidden1At m c
      ∧ r.2.mem ((c.tc : Thread nD τ).loc main_v0_2) = hidden2At m c
      ∧ r.2.mem ((c.tc : Thread nD τ).loc main_v0_3) = latentAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c main_v0_0 (by decide)).trans (Through.result_recon m ρ c),
     (h c main_v0_1 (by decide)).trans (Through.result_hidden1 m ρ c),
     (h c main_v0_2 (by decide)).trans (Through.result_hidden2 m ρ c),
     (h c main_v0_3 (by decide)).trans (Through.result_latent m ρ c),
     (h c main_arg0 (by decide)).trans (W5_main_arg0 m ρ c),
     (h c main_arg1 (by decide)).trans (W5_main_arg1 m ρ c),
     (h c main_arg2 (by decide)).trans (W5_main_arg2 m ρ c),
     (h c main_arg3 (by decide)).trans (W5_main_arg3 m ρ c),
     (h c main_arg4 (by decide)).trans (W5_main_arg4 m ρ c),
     (h c main_arg5 (by decide)).trans (W5_main_arg5 m ρ c),
     (h c main_arg6 (by decide)).trans (W5_main_arg6 m ρ c),
     (h c main_arg7 (by decide)).trans (W5_main_arg7 m ρ c),
     (h c main_arg8 (by decide)).trans (W5_main_arg8 m ρ c),
     (h c main_arg9 (by decide)).trans (W5_main_arg9 m ρ c),
     (h c main_arg10 (by decide)).trans (W5_main_arg10 m ρ c),
     (h c main_arg11 (by decide)).trans (W5_main_arg11 m ρ c)⟩)
    (Ends.run_ends m ρ)

end Cert.KernelIdeal.Results

end
-- ==== Proof.Reference.lean ====
/-
  The reference program's four results are the autoencoder's functions of the arguments.

  The reference computes each layer with host operations on whole arrays: a contraction of the second axis with the first is
  the matrix product; a maximum against a broadcast scalar zero is the clamp; a bias vector broadcast to one row and then
  down the rows, added, is the row addition of the vector as a one-row matrix. Reading its result terms with these three
  facts, innermost layer first, gives hidden1, hidden2, latent and recon.
-/
import proofs.«115511_g27393301414351_cont_sun_m_724_2_alg».proof.ReferenceIdeal
import proofs.«115511_g27393301414351_cont_sun_m_724_2_alg».proof.Proof.Gen.ReferenceIdeal
import proofs.«115511_g27393301414351_cont_sun_m_724_2_alg».proof.Proof.Autoencoder

set_option maxRecDepth 16384

noncomputable section

namespace Cert.ReferenceIdeal.Whole

open Idealize.ShloMosaic Idealize.ShloMosaic.ValueIdx
open Cert.ReferenceIdeal Cert.ReferenceIdeal.Gen Cert.Layers Cert.LibMatProd Cert.Autoencoder

variable (x : FVec Ideal S10000x256 .f32) (adj : FVec Ideal S10000x10000 .f32) (w1 : FVec Ideal S256x256 .f32) (w2 : FVec Ideal S256x128 .f32)
  (wz : FVec Ideal S128x64 .f32) (bz : FVec Ideal S64 .f32) (wd1 : FVec Ideal S64x128 .f32) (bd1 : FVec Ideal S128 .f32)
  (wd2 : FVec Ideal S128x256 .f32) (bd2 : FVec Ideal S256 .f32) (wx : FVec Ideal S256x256 .f32) (bx : FVec Ideal S256 .f32)

/-- The first hidden layer as the reference computes it. -/
theorem hidden1_eq :
    maximumf (Host.dotGeneral dot_S10000x10000_S10000x256_S10000x256_1_0_0_1_n_n none (adj) (Host.dotGeneral dot_S10000x256_S256x256_S10000x256_1_0_0_1_n_n none (x) (w1))) (broadcastInDim S10000x256 ![] bcast_S_S10000x256 (constant S_ .f32 0x00000000#32))
      = hidden1 (x : Mat 10000 256) (adj : Mat 10000 10000) (w1 : Mat 256 256) := by
  rw [host_prod _ rfl rfl rfl rfl rfl rfl, host_prod _ rfl rfl rfl rfl rfl rfl, host_clamp]
  rfl

/-- The second hidden layer as the reference computes it. -/
theorem hidden2_eq :
    maximumf (Host.dotGeneral dot_S10000x10000_S10000x128_S10000x128_1_0_0_1_n_n none (adj) (Host.dotGeneral dot_S10000x256_S256x128_S10000x128_1_0_0_1_n_n none (maximumf (Host.dotGeneral dot_S10000x10000_S10000x256_S10000x256_1_0_0_1_n_n none (adj) (Host.dotGeneral dot_S10000x256_S256x256_S10000x256_1_0_0_1_n_n none (x) (w1))) (broadcastInDim S10000x256 ![] bcast_S_S10000x256 (constant S_ .f32 0x00000000#32))) (w2))) (broadcastInDim S10000x128 ![] bcast_S_S10000x128 (constant S_ .f32 0x00000000#32))
      = hidden2 (x : Mat 10000 256) (adj : Mat 10000 10000) (w1 : Mat 256 256) (w2 : Mat 256 128) := by
  rw [hidden1_eq, host_prod _ rfl rfl rfl rfl rfl rfl, host_prod _ rfl rfl rfl rfl rfl rfl, host_clamp]
  rfl

/-- The latent layer as the reference computes it. -/
theorem latent_eq :
    addf (Host.dotGeneral dot_S10000x128_S128x64_S10000x64_1_0_0_1_n_n none (maximumf (Host.dotGeneral dot_S10000x10000_S10000x128_S10000x128_1_0_0_1_n_n none (adj) (Host.dotGeneral dot_S10000x256_S256x128_S10000x128_1_0_0_1_n_n none (maximumf (Host.dotGeneral dot_S10000x10000_S10000x256_S10000x256_1_0_0_1_n_n none (adj) (Host.dotGeneral dot_S10000x256_S256x256_S10000x256_1_0_0_1_n_n none (x) (w1))) (broadcastInDim S10000x256 ![] bcast_S_S10000x256 (constant S_ .f32 0x00000000#32))) (w2))) (broadcastInDim S10000x128 ![] bcast_S_S10000x128 (constant S_ .f32 0x00000000#32))) (wz)) (broadcastInDim S10000x64 ![0, 1] bcast_S1x64_S10000x64_0_1 (broadcastInDim S1x64 ![1] bcast_S64_S1x64_1 bz))
      = latent (x : Mat 10000 256) (adj : Mat 10000 10000) (w1 : Mat 256 256) (w2 : Mat 256 128) (wz : Mat 128 64) (bz : Vect 64) := by
  rw [hidden2_eq, host_prod _ rfl rfl rfl rfl rfl rfl, host_addRow]
  rfl

/-- The reconstruction as the reference computes it. -/
theorem recon_eq :
    addf (Host.dotGeneral dot_S10000x256_S256x256_S10000x256_1_0_0_1_n_n none (maximumf (addf (Host.dotGeneral dot_S10000x128_S128x256_S10000x256_1_0_0_1_n_n none (maximumf (addf (Host.dotGeneral dot_S10000x64_S64x128_S10000x128_1_0_0_1_n_n none (addf (Host.dotGeneral dot_S10000x128_S128x64_S10000x64_1_0_0_1_n_n none (maximumf (Host.dotGeneral dot_S10000x10000_S10000x128_S10000x128_1_0_0_1_n_n none (adj) (Host.dotGeneral dot_S10000x256_S256x128_S10000x128_1_0_0_1_n_n none (maximumf (Host.dotGeneral dot_S10000x10000_S10000x256_S10000x256_1_0_0_1_n_n none (adj) (Host.dotGeneral dot_S10000x256_S256x256_S10000x256_1_0_0_1_n_n none (x) (w1))) (broadcastInDim S10000x256 ![] bcast_S_S10000x256 (constant S_ .f32 0x00000000#32))) (w2))) (broadcastInDim S10000x128 ![] bcast_S_S10000x128 (constant S_ .f32 0x00000000#32))) (wz)) (broadcastInDim S10000x64 ![0, 1] bcast_S1x64_S10000x64_0_1 (broadcastInDim S1x64 ![1] bcast_S64_S1x64_1 bz))) (wd1)) (broadcastInDim S10000x128 ![0, 1] bcast_S1x128_S10000x128_0_1 (broadcastInDim S1x128 ![1] bcast_S128_S1x128_1 bd1))) (broadcastInDim S10000x128 ![] bcast_S_S10000x128 (constant S_ .f32 0x00000000#32))) (wd2)) (broadcastInDim S10000x256 ![0, 1] bcast_S1x256_S10000x256_0_1 (broadcastInDim S1x256 ![1] bcast_S256_S1x256_1 bd2))) (broadcastInDim S10000x256 ![] bcast_S_S10000x256 (constant S_ .f32 0x00000000#32))) (wx)) (broadcastInDim S10000x256 ![0, 1] bcast_S1x256_S10000x256_0_1 (broadcastInDim S1x256 ![1] bcast_S256_S1x256_1 bx))
      = recon (x : Mat 10000 256) (adj : Mat 10000 10000) (w1 : Mat 256 256) (w2 : Mat 256 128) (wz : Mat 128 64) (bz : Vect 64)
          (wd1 : Mat 64 128) (bd1 : Vect 128) (wd2 : Mat 128 256) (bd2 : Vect 256) (wx : Mat 256 256) (bx : Vect 256) := by
  rw [latent_eq, host_prod _ rfl rfl rfl rfl rfl rfl, host_prod _ rfl rfl rfl rfl rfl rfl, host_prod _ rfl rfl rfl rfl rfl rfl, host_addRow, host_addRow, host_addRow, host_clamp, host_clamp]
  rfl

end Cert.ReferenceIdeal.Whole

end
-- ==== Proof.lean ====
/-
  A graph autoencoder's forward pass — two graph-convolution layers, a latent dense layer and a three-layer decoder over
  10000 nodes — computed by four kernel launches, against the same network written with whole-array host operations.

  Over the extended reals the two programs compute the same thing, layer by layer and in the same grouping:
    hidden1 = clamp (adj · (x · w1)),   hidden2 = clamp (adj · (hidden1 · w2)),
    latent  = hidden2 · wz + bz,        recon   = the decoder's three dense layers of latent, the first two clamped.
  The kernel narrows operands to a shorter float format before its two large products, which changes nothing on exact
  values; its products are accumulated into zeros, which adds nothing; and it walks the adjacency matrix in 25 bands of 400
  rows, which is a restriction of the whole-matrix functions to bands of rows, since every layer acts row by row. The
  reference's contractions, maxima against zero and broadcast biases are the same three primitives. No algebraic law beyond
  the definitions joins the two sides, so the agreement does not use the finiteness of the inputs.

  The frames of the two kernel programs are their generated frame certificates; the reference's frame is its generated run
  with the results dropped; the idealization rewrote no operation, so there is nothing to preserve; and the algebraic claim
  puts the kernel program's run with its results named beside the reference's run, both at the autoencoder's functions of
  arguments that agree.
-/
import proofs.«115511_g27393301414351_cont_sun_m_724_2_alg».proof.Defs
import proofs.«115511_g27393301414351_cont_sun_m_724_2_alg».proof.Proof.Gen.Kernel
import proofs.«115511_g27393301414351_cont_sun_m_724_2_alg».proof.Proof.Gen.Kernel.Frame
import proofs.«115511_g27393301414351_cont_sun_m_724_2_alg».proof.Proof.Gen.KernelIdeal
import proofs.«115511_g27393301414351_cont_sun_m_724_2_alg».proof.Proof.Gen.KernelIdeal.Frame
import proofs.«115511_g27393301414351_cont_sun_m_724_2_alg».proof.Proof.Gen.ReferenceIdeal
import proofs.«115511_g27393301414351_cont_sun_m_724_2_alg».proof.Proof.Gen.ReferenceIdeal.Run
import proofs.«115511_g27393301414351_cont_sun_m_724_2_alg».proof.Proof.Gen.Pre_finite_inputs
import proofs.«115511_g27393301414351_cont_sun_m_724_2_alg».proof.Proof.Results
import proofs.«115511_g27393301414351_cont_sun_m_724_2_alg».proof.Proof.Reference

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run names its four results and keeps its arguments; the frame is the second half. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From arguments that agree, the kernel program's four result buffers and the reference's end at the same four matrices:
    the autoencoder's reconstruction, first hidden layer, second hidden layer and latent layer of the arguments. -/
theorem algebraic : Cert.algebraic_KernelIdeal_ReferenceIdeal := by
  intro m ρ m' ρ' _ hagree
  refine ⟨_, _, _, _, Cert.KernelIdeal.Results.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11⟩ := hagree c
  obtain ⟨r0, r1, r2, r3, kept⟩ := h c
  refine ⟨r0.trans ?_, r1.trans ?_, r2.trans ?_, r3.trans ?_, kept⟩
  · rw [a0, a1, a2, a3, a4, a5, a6, a7, a8, a9, a10, a11]
    exact Cert.ReferenceIdeal.Whole.recon_eq _ _ _ _ _ _ _ _ _ _ _ _
  · rw [a0, a1, a2]
    exact Cert.ReferenceIdeal.Whole.hidden1_eq _ _ _
  · rw [a0, a1, a2, a3]
    exact Cert.ReferenceIdeal.Whole.hidden2_eq _ _ _ _
  · rw [a0, a1, a2, a3, a4, a5]
    exact Cert.ReferenceIdeal.Whole.latent_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
